-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x32 : Shape := ⟨4, ![8, 256, 256, 32]⟩
abbrev S_ : Shape := ⟨0, ![]⟩

class Facts : Prop where
  bcast_S_S8x256x256x32 : S_.BroadcastsInDim S8x256x256x32 (![] : Fin 0 → Fin S8x256x256x32.rank)
  reducesTo_S8x256x256x32_S_d0_1_2_3 : S8x256x256x32.ReducesTo [0, 1, 2, 3] S_
  h_S_ : 0 < S_.numel

variable [Facts]

def fn {F : FTy → Type} [FloatOps F] (main_arg0 : FVec F S8x256x256x32 .f32) : IVec S_ 1 :=
  let main_v0 : FVec F S8x256x256x32 .f32 := Host.absf main_arg0
  let main_cst : FVec F S_ .f32 := constant S_ .f32 0x7F800000#32
  let main_v1 : FVec F S8x256x256x32 .f32 := broadcastInDim S8x256x256x32 ![] bcast_S_S8x256x256x32 main_cst
  let main_v2 : IVec S8x256x256x32 1 := cmpf .olt main_v0 main_v1
  let main_c : IVec S_ 1 := constantI S_ 1 1#1
  let main_v3 : IVec S_ 1 := (fun x v => Host.reduce IntOp.andi x v reducesTo_S8x256x256x32_S_d0_1_2_3 h_S_) main_v2 main_c
  main_v3
-- ==== Kernel.lean ====
abbrev S8x256x256x32 : Shape := ⟨4, ![8, 256, 256, 32]⟩
abbrev S_ : Shape := ⟨0, ![]⟩
abbrev S8x1x256x32 : Shape := ⟨4, ![8, 1, 256, 32]⟩
abbrev S8x257x256x32 : Shape := ⟨4, ![8, 257, 256, 32]⟩
abbrev S8x258x256x32 : Shape := ⟨4, ![8, 258, 256, 32]⟩
abbrev S8x258x1x32 : Shape := ⟨4, ![8, 258, 1, 32]⟩
abbrev S8x258x257x32 : Shape := ⟨4, ![8, 258, 257, 32]⟩
abbrev S8x258x258x32 : Shape := ⟨4, ![8, 258, 258, 32]⟩
abbrev S8x256x256x288 : Shape := ⟨4, ![8, 256, 256, 288]⟩
abbrev S1x258x258x32 : Shape := ⟨4, ![1, 258, 258, 32]⟩
abbrev S1x16x256x288 : Shape := ⟨4, ![1, 16, 256, 288]⟩
abbrev S1x16x256x32 : Shape := ⟨4, ![1, 16, 256, 32]⟩
abbrev S16x256x32 : Shape := ⟨3, ![16, 256, 32]⟩
abbrev S16x256x32x1 : Shape := ⟨4, ![16, 256, 32, 1]⟩
abbrev S16x256x32x9 : Shape := ⟨4, ![16, 256, 32, 9]⟩
abbrev S16x256x288 : Shape := ⟨3, ![16, 256, 288]⟩

abbrev nBuf : Space → Nat
  | .hbm => 19
  | .vmem => 3
  | .smem => 0
  | _ => 0

abbrev bufTy : (tb : Table) → Fin (tcTables nBuf tb) → BufTy
  | .hbm, ⟨0, _⟩ => ⟨S8x256x256x32, .f32⟩
  | .hbm, ⟨1, _⟩ => ⟨S_, .i32⟩
  | .hbm, ⟨2, _⟩ => ⟨S8x1x256x32, .f32⟩
  | .hbm, ⟨3, _⟩ => ⟨S8x1x256x32, .f32⟩
  | .hbm, ⟨4, _⟩ => ⟨S8x1x256x32, .f32⟩
  | .hbm, ⟨5, _⟩ => ⟨S8x257x256x32, .f32⟩
  | .hbm, ⟨6, _⟩ => ⟨S8x1x256x32, .f32⟩
  | .hbm, ⟨7, _⟩ => ⟨S8x1x256x32, .f32⟩
  | .hbm, ⟨8, _⟩ => ⟨S8x1x256x32, .f32⟩
  | .hbm, ⟨9, _⟩ => ⟨S8x258x256x32, .f32⟩
  | .hbm, ⟨10, _⟩ => ⟨S8x258x1x32, .f32⟩
  | .hbm, ⟨11, _⟩ => ⟨S8x258x1x32, .f32⟩
  | .hbm, ⟨12, _⟩ => ⟨S8x258x1x32, .f32⟩
  | .hbm, ⟨13, _⟩ => ⟨S8x258x257x32, .f32⟩
  | .hbm, ⟨14, _⟩ => ⟨S8x258x1x32, .f32⟩
  | .hbm, ⟨15, _⟩ => ⟨S8x258x1x32, .f32⟩
  | .hbm, ⟨16, _⟩ => ⟨S8x258x1x32, .f32⟩
  | .hbm, ⟨17, _⟩ => ⟨S8x258x258x32, .f32⟩
  | .hbm, ⟨18, _⟩ => ⟨S8x256x256x288, .f32⟩
  | .local _ .vmem, ⟨0, _⟩ => ⟨S1x258x258x32, .f32⟩
  | .local _ .vmem, ⟨1, _⟩ => ⟨S1x16x256x288, .f32⟩
  | .local _ .vmem, ⟨2, _⟩ => ⟨S1x16x256x288, .f32⟩
  | _, _ => ⟨S8x256x256x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 16], ![false, false]⟩

def k0_off1 (i : grid0.Coords) (c0_i32 : BitVec 32) : Fin 4 → Nat :=
  let c0 : Index := 0#32
  let arg1 : BitVec 32 := BitVec.ofNat 32 (i 1).val
  let c16_i32 : BitVec 32 := 16#32
  let v0 : BitVec 32 := Scalar.muli arg1 c16_i32
  let v1 : BitVec 32 := Scalar.addi v0 c0_i32
  let v2 : Index := Scalar.indexCast v1
  let c0_0 : Index := 0#32
  let c0_1 : Index := 0#32
  ![0, v2.toNat, 0, 0]
def k0_off2 (i : grid0.Coords) (c0_i32_2 : BitVec 32) : Fin 4 → Nat :=
  let c0_3 : Index := 0#32
  let arg1 : BitVec 32 := BitVec.ofNat 32 (i 1).val
  let c16_i32 : BitVec 32 := 16#32
  let v0 : BitVec 32 := Scalar.muli arg1 c16_i32
  let v5 : BitVec 32 := Scalar.addi v0 c0_i32_2
  let v6 : Index := Scalar.indexCast v5
  let c1 : Index := 1#32
  let c0_4 : Index := 0#32
  ![0, v6.toNat, 1, 0]
def k0_off3 (i : grid0.Coords) (c0_i32_5 : BitVec 32) : Fin 4 → Nat :=
  let c0_6 : Index := 0#32
  let arg1 : BitVec 32 := BitVec.ofNat 32 (i 1).val
  let c16_i32 : BitVec 32 := 16#32
  let v0 : BitVec 32 := Scalar.muli arg1 c16_i32
  let v9 : BitVec 32 := Scalar.addi v0 c0_i32_5
  let v10 : Index := Scalar.indexCast v9
  let c2 : Index := 2#32
  let c0_7 : Index := 0#32
  ![0, v10.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x258x258x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x16x256x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  slices_S8x256x256x32_S8x1x256x32_0_0_0_0 : S8x256x256x32.Slices ![0, 0, 0, 0] S8x1x256x32
  slices_S8x256x256x32_S8x1x256x32_0_1_0_0 : S8x256x256x32.Slices ![0, 1, 0, 0] S8x1x256x32
  concatenates_S8x1x256x32_S8x256x256x32_S8x257x256x32_d1 : Shape.Concatenates [S8x1x256x32, S8x256x256x32] S8x257x256x32 1
  slices_S8x257x256x32_S8x1x256x32_0_256_0_0 : S8x257x256x32.Slices ![0, 256, 0, 0] S8x1x256x32
  slices_S8x257x256x32_S8x1x256x32_0_255_0_0 : S8x257x256x32.Slices ![0, 255, 0, 0] S8x1x256x32
  concatenates_S8x257x256x32_S8x1x256x32_S8x258x256x32_d1 : Shape.Concatenates [S8x257x256x32, S8x1x256x32] S8x258x256x32 1
  slices_S8x258x256x32_S8x258x1x32_0_0_0_0 : S8x258x256x32.Slices ![0, 0, 0, 0] S8x258x1x32
  slices_S8x258x256x32_S8x258x1x32_0_0_1_0 : S8x258x256x32.Slices ![0, 0, 1, 0] S8x258x1x32
  concatenates_S8x258x1x32_S8x258x256x32_S8x258x257x32_d2 : Shape.Concatenates [S8x258x1x32, S8x258x256x32] S8x258x257x32 2
  slices_S8x258x257x32_S8x258x1x32_0_0_256_0 : S8x258x257x32.Slices ![0, 0, 256, 0] S8x258x1x32
  slices_S8x258x257x32_S8x258x1x32_0_0_255_0 : S8x258x257x32.Slices ![0, 0, 255, 0] S8x258x1x32
  concatenates_S8x258x257x32_S8x258x1x32_S8x258x258x32_d2 : Shape.Concatenates [S8x258x257x32, S8x258x1x32] S8x258x258x32 2
  h_S1x16x256x32 : 0 < S1x16x256x32.numel
  shapeCasts_S1x16x256x32_S16x256x32 : S1x16x256x32.ShapeCasts S16x256x32
  shapeCasts_S16x256x32_S16x256x32x1 : S16x256x32.ShapeCasts S16x256x32x1
  concatenates_S16x256x32x1_S16x256x32x1_S16x256x32x1_S16x256x32x1_S16x256x32x1_S16x256x32x1_S16x256x32x1_S16x256x32x1_S16x256x32x1_S16x256x32x9_d3 : Shape.Concatenates [S16x256x32x1, S16x256x32x1, S16x256x32x1, S16x256x32x1, S16x256x32x1, S16x256x32x1, S16x256x32x1, S16x256x32x1, S16x256x32x1] S16x256x32x9 3
  shapeCasts_S16x256x32x9_S16x256x288 : S16x256x32x9.ShapeCasts S16x256x288
  inb_S1x16x256x288_S1x16x256x288_0_0_0_0 : ∀ a, (![0, 0, 0, 0] : Fin 4 → Nat) a + S1x16x256x288.size a ≤ S1x16x256x288.size a
  h_S1x16x256x288 : 0 < S1x16x256x288.numel
  shapeCasts_S1x16x256x288_S16x256x288 : S1x16x256x288.ShapeCasts S16x256x288
  shapeCasts_S16x256x288_S1x16x256x288 : S16x256x288.ShapeCasts S1x16x256x288
  hrank0 : 0 < grid0.rank
  k0_off1_inb : ∀ i : grid0.Coords, ∀ (r : Fin 3), ∀ a, (k0_off1 i (BitVec.ofNat 32 r.val)) a + S1x16x256x32.size a ≤ S1x258x258x32.size a
  k0_off2_inb : ∀ i : grid0.Coords, ∀ (r : Fin 3), ∀ a, (k0_off2 i (BitVec.ofNat 32 r.val)) a + S1x16x256x32.size a ≤ S1x258x258x32.size a
  k0_off3_inb : ∀ i : grid0.Coords, ∀ (r : Fin 3), ∀ a, (k0_off3 i (BitVec.ofNat 32 r.val)) a + S1x16x256x32.size a ≤ S1x258x258x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x258x258x32.size a ≤ S8x258x258x32.size a
  hwx0_0 : ∀ i : grid0.Coords, EltTy.bits .f32 = 32 ∨ (Rect.block (s := S8x258x258x32) S1x258x258x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x288.size a ≤ S8x256x256x288.size a
  hwx0_1 : ∀ i : grid0.Coords, EltTy.bits .f32 = 32 ∨ (Rect.block (s := S8x256x256x288) S1x16x256x288.size (cc0_transform_1 i) (hinb0_1 i)).WholeWords (EltTy.packing .f32)

variable [Facts₀]

abbrev win0_0 : Pipeline.Window sig grid0 :=
  Pipeline.Window.ofSpec (Memref.whole main_v0) S1x258x258x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x256x288.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x256x32 : Shape := ⟨4, ![8, 256, 256, 32]⟩
abbrev S_ : Shape := ⟨0, ![]⟩
abbrev S8x1x256x32 : Shape := ⟨4, ![8, 1, 256, 32]⟩
abbrev S8x257x256x32 : Shape := ⟨4, ![8, 257, 256, 32]⟩
abbrev S8x258x256x32 : Shape := ⟨4, ![8, 258, 256, 32]⟩
abbrev S8x258x1x32 : Shape := ⟨4, ![8, 258, 1, 32]⟩
abbrev S8x258x257x32 : Shape := ⟨4, ![8, 258, 257, 32]⟩
abbrev S8x258x258x32 : Shape := ⟨4, ![8, 258, 258, 32]⟩
abbrev S8x256x256x32x1 : Shape := ⟨5, ![8, 256, 256, 32, 1]⟩
abbrev S8x256x256x32x9 : Shape := ⟨5, ![8, 256, 256, 32, 9]⟩
abbrev S8x256x256x288 : Shape := ⟨4, ![8, 256, 256, 288]⟩

abbrev nBuf : Space → Nat
  | .hbm => 38
  | .vmem => 0
  | .smem => 0
  | _ => 0

abbrev bufTy : (tb : Table) → Fin (tcTables nBuf tb) → BufTy
  | .hbm, ⟨0, _⟩ => ⟨S8x256x256x32, .f32⟩
  | .hbm, ⟨1, _⟩ => ⟨S_, .i32⟩
  | .hbm, ⟨2, _⟩ => ⟨S8x1x256x32, .f32⟩
  | .hbm, ⟨3, _⟩ => ⟨S8x1x256x32, .f32⟩
  | .hbm, ⟨4, _⟩ => ⟨S8x1x256x32, .f32⟩
  | .hbm, ⟨5, _⟩ => ⟨S8x257x256x32, .f32⟩
  | .hbm, ⟨6, _⟩ => ⟨S8x1x256x32, .f32⟩
  | .hbm, ⟨7, _⟩ => ⟨S8x1x256x32, .f32⟩
  | .hbm, ⟨8, _⟩ => ⟨S8x1x256x32, .f32⟩
  | .hbm, ⟨9, _⟩ => ⟨S8x258x256x32, .f32⟩
  | .hbm, ⟨10, _⟩ => ⟨S8x258x1x32, .f32⟩
  | .hbm, ⟨11, _⟩ => ⟨S8x258x1x32, .f32⟩
  | .hbm, ⟨12, _⟩ => ⟨S8x258x1x32, .f32⟩
  | .hbm, ⟨13, _⟩ => ⟨S8x258x257x32, .f32⟩
  | .hbm, ⟨14, _⟩ => ⟨S8x258x1x32, .f32⟩
  | .hbm, ⟨15, _⟩ => ⟨S8x258x1x32, .f32⟩
  | .hbm, ⟨16, _⟩ => ⟨S8x258x1x32, .f32⟩
  | .hbm, ⟨17, _⟩ => ⟨S8x258x258x32, .f32⟩
  | .hbm, ⟨18, _⟩ => ⟨S8x256x256x32, .f32⟩
  | .hbm, ⟨19, _⟩ => ⟨S8x256x256x32, .f32⟩
  | .hbm, ⟨20, _⟩ => ⟨S8x256x256x32, .f32⟩
  | .hbm, ⟨21, _⟩ => ⟨S8x256x256x32, .f32⟩
  | .hbm, ⟨22, _⟩ => ⟨S8x256x256x32, .f32⟩
  | .hbm, ⟨23, _⟩ => ⟨S8x256x256x32, .f32⟩
  | .hbm, ⟨24, _⟩ => ⟨S8x256x256x32, .f32⟩
  | .hbm, ⟨25, _⟩ => ⟨S8x256x256x32, .f32⟩
  | .hbm, ⟨26, _⟩ => ⟨S8x256x256x32, .f32⟩
  | .hbm, ⟨27, _⟩ => ⟨S8x256x256x32x1, .f32⟩
  | .hbm, ⟨28, _⟩ => ⟨S8x256x256x32x1, .f32⟩
  | .hbm, ⟨29, _⟩ => ⟨S8x256x256x32x1, .f32⟩
  | .hbm, ⟨30, _⟩ => ⟨S8x256x256x32x1, .f32⟩
  | .hbm, ⟨31, _⟩ => ⟨S8x256x256x32x1, .f32⟩
  | .hbm, ⟨32, _⟩ => ⟨S8x256x256x32x1, .f32⟩
  | .hbm, ⟨33, _⟩ => ⟨S8x256x256x32x1, .f32⟩
  | .hbm, ⟨34, _⟩ => ⟨S8x256x256x32x1, .f32⟩
  | .hbm, ⟨35, _⟩ => ⟨S8x256x256x32x1, .f32⟩
  | .hbm, ⟨36, _⟩ => ⟨S8x256x256x32x9, .f32⟩
  | .hbm, ⟨37, _⟩ => ⟨S8x256x256x288, .f32⟩
  | _, _ => ⟨S8x256x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]

class Facts₀ : Prop where
  slices_S8x256x256x32_S8x1x256x32_0_0_0_0 : S8x256x256x32.Slices ![0, 0, 0, 0] S8x1x256x32
  slices_S8x256x256x32_S8x1x256x32_0_1_0_0 : S8x256x256x32.Slices ![0, 1, 0, 0] S8x1x256x32
  concatenates_S8x1x256x32_S8x256x256x32_S8x257x256x32_d1 : Shape.Concatenates [S8x1x256x32, S8x256x256x32] S8x257x256x32 1
  slices_S8x257x256x32_S8x1x256x32_0_256_0_0 : S8x257x256x32.Slices ![0, 256, 0, 0] S8x1x256x32
  slices_S8x257x256x32_S8x1x256x32_0_255_0_0 : S8x257x256x32.Slices ![0, 255, 0, 0] S8x1x256x32
  concatenates_S8x257x256x32_S8x1x256x32_S8x258x256x32_d1 : Shape.Concatenates [S8x257x256x32, S8x1x256x32] S8x258x256x32 1
  slices_S8x258x256x32_S8x258x1x32_0_0_0_0 : S8x258x256x32.Slices ![0, 0, 0, 0] S8x258x1x32
  slices_S8x258x256x32_S8x258x1x32_0_0_1_0 : S8x258x256x32.Slices ![0, 0, 1, 0] S8x258x1x32
  concatenates_S8x258x1x32_S8x258x256x32_S8x258x257x32_d2 : Shape.Concatenates [S8x258x1x32, S8x258x256x32] S8x258x257x32 2
  slices_S8x258x257x32_S8x258x1x32_0_0_256_0 : S8x258x257x32.Slices ![0, 0, 256, 0] S8x258x1x32
  slices_S8x258x257x32_S8x258x1x32_0_0_255_0 : S8x258x257x32.Slices ![0, 0, 255, 0] S8x258x1x32
  concatenates_S8x258x257x32_S8x258x1x32_S8x258x258x32_d2 : Shape.Concatenates [S8x258x257x32, S8x258x1x32] S8x258x258x32 2
  slices_S8x258x258x32_S8x256x256x32_0_0_0_0 : S8x258x258x32.Slices ![0, 0, 0, 0] S8x256x256x32
  slices_S8x258x258x32_S8x256x256x32_0_0_1_0 : S8x258x258x32.Slices ![0, 0, 1, 0] S8x256x256x32
  slices_S8x258x258x32_S8x256x256x32_0_0_2_0 : S8x258x258x32.Slices ![0, 0, 2, 0] S8x256x256x32
  slices_S8x258x258x32_S8x256x256x32_0_1_0_0 : S8x258x258x32.Slices ![0, 1, 0, 0] S8x256x256x32
  slices_S8x258x258x32_S8x256x256x32_0_1_1_0 : S8x258x258x32.Slices ![0, 1, 1, 0] S8x256x256x32
  slices_S8x258x258x32_S8x256x256x32_0_1_2_0 : S8x258x258x32.Slices ![0, 1, 2, 0] S8x256x256x32
  slices_S8x258x258x32_S8x256x256x32_0_2_0_0 : S8x258x258x32.Slices ![0, 2, 0, 0] S8x256x256x32
  slices_S8x258x258x32_S8x256x256x32_0_2_1_0 : S8x258x258x32.Slices ![0, 2, 1, 0] S8x256x256x32
  slices_S8x258x258x32_S8x256x256x32_0_2_2_0 : S8x258x258x32.Slices ![0, 2, 2, 0] S8x256x256x32
  bcast_S8x256x256x32_S8x256x256x32x1_0_1_2_3 : S8x256x256x32.BroadcastsInDim S8x256x256x32x1 (![0, 1, 2, 3] : Fin 4 → Fin S8x256x256x32x1.rank)
  concatenates_S8x256x256x32x1_S8x256x256x32x1_S8x256x256x32x1_S8x256x256x32x1_S8x256x256x32x1_S8x256x256x32x1_S8x256x256x32x1_S8x256x256x32x1_S8x256x256x32x1_S8x256x256x32x9_d4 : Shape.Concatenates [S8x256x256x32x1, S8x256x256x32x1, S8x256x256x32x1, S8x256x256x32x1, S8x256x256x32x1, S8x256x256x32x1, S8x256x256x32x1, S8x256x256x32x1, S8x256x256x32x1] S8x256x256x32x9 4
  shapeCasts_S8x256x256x32x9_S8x256x256x288 : S8x256x256x32x9.ShapeCasts S8x256x256x288

variable [Facts₀]

class Facts : Prop extends Facts₀ where

variable [Facts]
-- ==== Proof.Patches.lean ====
/-
  What both programs compute, as one function of the reflect-padded image.

  The padded image `p` has shape [8, 258, 258, 32] (batch, row, column, channel). The result has shape
  [8, 256, 256, 288]: at batch `b`, row `y`, column `x`, the 288 output channels list, for each input channel
  `c` (outer) and each of the nine taps `i = 3 * ki + kj` (inner) of the 3 × 3 window whose top-left corner sits at
  `(y, x)` of the padded image, the entry `p[b, y + ki, x + kj, c]`. So output channel `k` is channel `k / 9`, tap
  `k % 9`, tap row `k % 9 / 3`, tap column `k % 9 % 3`. Nothing is computed on the values: the result is a
  re-indexing of `p`.
-/
import Idealize.ShloMosaic.PureOps.Ideal
import Idealize.ShloMosaic.Lib.ValueIdx

noncomputable section

namespace Cert.Patches

open Idealize.ShloMosaic Idealize.ShloMosaic.ValueIdx

/-- The entry of the padded image that output position `(b, y, x, k)` holds: row `y + k % 9 / 3`, column
    `x + k % 9 % 3`, channel `k / 9`. -/
def tapAt {α : Type} (p : (⟨4, ![8, 258, 258, 32]⟩ : Shape).Idx → α) (b : Fin 8) (y : Fin 256) (x : Fin 256) (k : Fin 288) : α :=
  p (ix4 b (⟨y.val + k.val % 9 / 3, by omega⟩ : Fin 258) (⟨x.val + k.val % 9 % 3, by omega⟩ : Fin 258)
    (⟨k.val / 9, by omega⟩ : Fin 32))

/-- The 3 × 3 patches of the padded image, tap-minor within channel: the whole result array. -/
def patches {α : Type} (p : (⟨4, ![8, 258, 258, 32]⟩ : Shape).Idx → α) : (⟨4, ![8, 256, 256, 288]⟩ : Shape).Idx → α :=
  fun j => tapAt p (j 0) (j 1) (j 2) (j 3)

theorem patches_ix4 {α : Type} (p : (⟨4, ![8, 258, 258, 32]⟩ : Shape).Idx → α) (b : Fin 8) (y : Fin 256) (x : Fin 256) (k : Fin 288) :
    patches p (ix4 b y x k) = tapAt p b y x k := rfl

end Cert.Patches

end
-- ==== Proof.Layout.lean ====
/-
  The reference's two stages as functions of arrays, and the second stage read at an index.

  `pad` is jnp's reflect pad of the two spatial axes by one, spelt as the compiler prints it: the row
  next to each border, reversed along its (unit) axis, is concatenated outside that border — first the two
  row borders, then the two column borders of the row-padded array. Nothing here opens it: both programs
  apply it to the same argument.

  `tail` is what the reference does with the padded image `p`: nine unit-stride slices `p[:, ki : ki + 256,
  kj : kj + 256, :]` for `(ki, kj)` in row-major order over the 3 × 3 window, each given a trailing unit axis,
  concatenated along that axis (so tap `i = 3 * ki + kj` sits at position `i` of the last axis), and the last two
  axes `[32, 9]` merged into one of 288. Read at `(b, y, x, k)`: the merge sends `k` to channel `k / 9` and tap
  `k % 9`; the concatenation picks slice `k % 9`; the slice adds its offsets `(k % 9 / 3, k % 9 % 3)` to
  `(y, x)`. That is `Cert.Patches.patches p`.
-/
import Idealize.ShloMosaic.Lib.Pipeline.Value
import Idealize.ShloMosaic.Lib.ValueIdx
import proofs.«179139_j61564061221008_1_alg».proof.Proof.Patches

noncomputable section

namespace Cert.Patches

open Idealize.ShloMosaic Idealize.ShloMosaic.ValueIdx

abbrev SImg : Shape := ⟨4, ![8, 256, 256, 32]⟩
abbrev SRow : Shape := ⟨4, ![8, 1, 256, 32]⟩
abbrev SRows257 : Shape := ⟨4, ![8, 257, 256, 32]⟩
abbrev SRows258 : Shape := ⟨4, ![8, 258, 256, 32]⟩
abbrev SCol : Shape := ⟨4, ![8, 258, 1, 32]⟩
abbrev SCols257 : Shape := ⟨4, ![8, 258, 257, 32]⟩
abbrev SPad : Shape := ⟨4, ![8, 258, 258, 32]⟩
abbrev STap : Shape := ⟨5, ![8, 256, 256, 32, 1]⟩
abbrev STaps : Shape := ⟨5, ![8, 256, 256, 32, 9]⟩
abbrev SOut : Shape := ⟨4, ![8, 256, 256, 288]⟩

variable {α : Type}

theorem cat_above : Shape.Concatenates [SRow, SImg] SRows257 1 := by decide
theorem cat_rows : Shape.Concatenates [SRows257, SRow] SRows258 1 := by decide
theorem cat_left : Shape.Concatenates [SCol, SRows258] SCols257 2 := by decide
theorem cat_cols : Shape.Concatenates [SCols257, SCol] SPad 2 := by decide
theorem cat_taps : Shape.Concatenates [STap, STap, STap, STap, STap, STap, STap, STap, STap] STaps 4 := by decide

/-- The reflect pad by one of axes 1 and 2: row 1 above row 0 and row 254 below row 255, then the same for
    the columns of the result. -/
def pad (x : SImg.Idx → α) : SPad.Idx → α :=
  let above : SRows257.Idx → α :=
    concatenate SRows257 1 [⟨SRow, Host.reverse [1] (extractStridedSlice SRow ![0, 1, 0, 0] x (by decide))⟩, ⟨SImg, x⟩] cat_above
  let rows : SRows258.Idx → α :=
    concatenate SRows258 1 [⟨SRows257, above⟩, ⟨SRow, Host.reverse [1] (extractStridedSlice SRow ![0, 255, 0, 0] above (by decide))⟩] cat_rows
  let left : SCols257.Idx → α :=
    concatenate SCols257 2 [⟨SCol, Host.reverse [2] (extractStridedSlice SCol ![0, 0, 1, 0] rows (by decide))⟩, ⟨SRows258, rows⟩] cat_left
  concatenate SPad 2 [⟨SCols257, left⟩, ⟨SCol, Host.reverse [2] (extractStridedSlice SCol ![0, 0, 255, 0] left (by decide))⟩] cat_cols

/-- One tap: the slice of the padded image at window offset `(ki, kj)`, with a trailing unit axis. -/
def tap (p : SPad.Idx → α) (off : Fin 4 → Nat) (h : SPad.Slices off SImg) : STap.Idx → α :=
  broadcastInDim STap ![0, 1, 2, 3] (by decide) (extractStridedSlice SImg off p h)

/-- The nine taps stacked on the last axis, then channel and tap merged. -/
def tail (p : SPad.Idx → α) : SOut.Idx → α :=
  shapeCast SOut
    (concatenate STaps 4
      [⟨STap, tap p ![0, 0, 0, 0] (by decide)⟩, ⟨STap, tap p ![0, 0, 1, 0] (by decide)⟩, ⟨STap, tap p ![0, 0, 2, 0] (by decide)⟩,
       ⟨STap, tap p ![0, 1, 0, 0] (by decide)⟩, ⟨STap, tap p ![0, 1, 1, 0] (by decide)⟩, ⟨STap, tap p ![0, 1, 2, 0] (by decide)⟩,
       ⟨STap, tap p ![0, 2, 0, 0] (by decide)⟩, ⟨STap, tap p ![0, 2, 1, 0] (by decide)⟩, ⟨STap, tap p ![0, 2, 2, 0] (by decide)⟩]
      cat_taps)
    (by decide)

/-- A tap at `(b, y, x, c, 0)` is the padded image at `(b, y + ki, x + kj, c)`. -/
theorem tap_apply (p : SPad.Idx → α) (ki kj : Nat) (h : SPad.Slices ![0, ki, kj, 0] SImg) (b : Fin 8) (y x : Fin 256) (c : Fin 32)
    (e : Fin 1) (y' x' : Fin 258) (hy : y'.val = y.val + ki) (hx : x'.val = x.val + kj) :
    tap p ![0, ki, kj, 0] h (ix5 b y x c e) = p (ix4 b y' x' c) := by
  unfold tap
  refine (broadcastInDim_apply (s := SImg) (t := STap) ![0, 1, 2, 3] _ _ (ix5 b y x c e) (ix4 b y x c) ?_).trans ?_
  · intro a
    match a with
    | ⟨0, _⟩ => rfl
    | ⟨1, _⟩ => rfl
    | ⟨2, _⟩ => rfl
    | ⟨3, _⟩ => rfl
  · refine extractStridedSlice_apply (s := SPad) (t := SImg) _ p h (ix4 b y x c) (ix4 b y' x' c) ?_
    intro a
    match a with
    | ⟨0, _⟩ => show b.val = 0 + b.val; omega
    | ⟨1, _⟩ => show y'.val = ki + y.val; omega
    | ⟨2, _⟩ => show x'.val = kj + x.val; omega
    | ⟨3, _⟩ => show c.val = 0 + c.val; omega

/-- The second stage at an index is the patch gather's entry. -/
theorem tail_apply (p : SPad.Idx → α) (b : Fin 8) (y x : Fin 256) (k : Fin 288) :
    tail p (ix4 b y x k) = tapAt p b y x k := by
  have hc : k.val / 9 < 32 := by omega
  have hn : k.val % 9 < 9 := by omega
  unfold tail
  refine (shapeCast_apply (s := STaps) (t := SOut) _ _ (ix4 b y x k) (ix5 b y x ⟨k.val / 9, hc⟩ ⟨k.val % 9, hn⟩) ?_).trans ?_
  · rw [Shape.rowMajor_val_five, Shape.rowMajor_val_four]
    show (((b.val * 256 + y.val) * 256 + x.val) * 32 + k.val / 9) * 9 + k.val % 9
      = ((b.val * 256 + y.val) * 256 + x.val) * 288 + k.val
    omega
  -- the tap is `k % 9`: one case per slice, each at its literal offsets
  have h9 : k.val % 9 = 0 ∨ k.val % 9 = 1 ∨ k.val % 9 = 2 ∨ k.val % 9 = 3 ∨ k.val % 9 = 4 ∨ k.val % 9 = 5
      ∨ k.val % 9 = 6 ∨ k.val % 9 = 7 ∨ k.val % 9 = 8 := by omega
  have hoff : ∀ b' : Fin STap.rank, b'.cast (rfl : STap.rank = STaps.rank) ≠ (4 : Fin STaps.rank) →
      ((ix5 b y x (⟨k.val / 9, hc⟩ : Fin 32) (0 : Fin 1) : STap.Idx) b').val
        = ((ix5 b y x (⟨k.val / 9, hc⟩ : Fin 32) (⟨k.val % 9, hn⟩ : Fin 9) : STaps.Idx) (b'.cast rfl)).val := by
    intro b' hb'
    match b' with
    | ⟨0, _⟩ => rfl
    | ⟨1, _⟩ => rfl
    | ⟨2, _⟩ => rfl
    | ⟨3, _⟩ => rfl
    | ⟨4, _⟩ => exact absurd rfl hb'
  unfold tapAt
  rcases h9 with h | h | h | h | h | h | h | h | h
  · refine (concatenate_apply_piece (4 : Fin STaps.rank) _ _ _ 0 (by show 0 < 9; omega) STap _ rfl rfl 0 rfl
      (ix5 b y x ⟨k.val / 9, hc⟩ 0) hoff (by show 0 + 0 = k.val % 9; omega)).trans ?_
    exact tap_apply p 0 0 _ b y x _ 0 _ _ (by show y.val + k.val % 9 / 3 = y.val + 0; omega)
      (by show x.val + k.val % 9 % 3 = x.val + 0; omega)
  · refine (concatenate_apply_piece (4 : Fin STaps.rank) _ _ _ 1 (by show 1 < 9; omega) STap _ rfl rfl 1 rfl
      (ix5 b y x ⟨k.val / 9, hc⟩ 0) hoff (by show 1 + 0 = k.val % 9; omega)).trans ?_
    exact tap_apply p 0 1 _ b y x _ 0 _ _ (by show y.val + k.val % 9 / 3 = y.val + 0; omega)
      (by show x.val + k.val % 9 % 3 = x.val + 1; omega)
  · refine (concatenate_apply_piece (4 : Fin STaps.rank) _ _ _ 2 (by show 2 < 9; omega) STap _ rfl rfl 2 rfl
      (ix5 b y x ⟨k.val / 9, hc⟩ 0) hoff (by show 2 + 0 = k.val % 9; omega)).trans ?_
    exact tap_apply p 0 2 _ b y x _ 0 _ _ (by show y.val + k.val % 9 / 3 = y.val + 0; omega)
      (by show x.val + k.val % 9 % 3 = x.val + 2; omega)
  · refine (concatenate_apply_piece (4 : Fin STaps.rank) _ _ _ 3 (by show 3 < 9; omega) STap _ rfl rfl 3 rfl
      (ix5 b y x ⟨k.val / 9, hc⟩ 0) hoff (by show 3 + 0 = k.val % 9; omega)).trans ?_
    exact tap_apply p 1 0 _ b y x _ 0 _ _ (by show y.val + k.val % 9 / 3 = y.val + 1; omega)
      (by show x.val + k.val % 9 % 3 = x.val + 0; omega)
  · refine (concatenate_apply_piece (4 : Fin STaps.rank) _ _ _ 4 (by show 4 < 9; omega) STap _ rfl rfl 4 rfl
      (ix5 b y x ⟨k.val / 9, hc⟩ 0) hoff (by show 4 + 0 = k.val % 9; omega)).trans ?_
    exact tap_apply p 1 1 _ b y x _ 0 _ _ (by show y.val + k.val % 9 / 3 = y.val + 1; omega)
      (by show x.val + k.val % 9 % 3 = x.val + 1; omega)
  · refine (concatenate_apply_piece (4 : Fin STaps.rank) _ _ _ 5 (by show 5 < 9; omega) STap _ rfl rfl 5 rfl
      (ix5 b y x ⟨k.val / 9, hc⟩ 0) hoff (by show 5 + 0 = k.val % 9; omega)).trans ?_
    exact tap_apply p 1 2 _ b y x _ 0 _ _ (by show y.val + k.val % 9 / 3 = y.val + 1; omega)
      (by show x.val + k.val % 9 % 3 = x.val + 2; omega)
  · refine (concatenate_apply_piece (4 : Fin STaps.rank) _ _ _ 6 (by show 6 < 9; omega) STap _ rfl rfl 6 rfl
      (ix5 b y x ⟨k.val / 9, hc⟩ 0) hoff (by show 6 + 0 = k.val % 9; omega)).trans ?_
    exact tap_apply p 2 0 _ b y x _ 0 _ _ (by show y.val + k.val % 9 / 3 = y.val + 2; omega)
      (by show x.val + k.val % 9 % 3 = x.val + 0; omega)
  · refine (concatenate_apply_piece (4 : Fin STaps.rank) _ _ _ 7 (by show 7 < 9; omega) STap _ rfl rfl 7 rfl
      (ix5 b y x ⟨k.val / 9, hc⟩ 0) hoff (by show 7 + 0 = k.val % 9; omega)).trans ?_
    exact tap_apply p 2 1 _ b y x _ 0 _ _ (by show y.val + k.val % 9 / 3 = y.val + 2; omega)
      (by show x.val + k.val % 9 % 3 = x.val + 1; omega)
  · refine (concatenate_apply_piece (4 : Fin STaps.rank) _ _ _ 8 (by show 8 < 9; omega) STap _ rfl rfl 8 rfl
      (ix5 b y x ⟨k.val / 9, hc⟩ 0) hoff (by show 8 + 0 = k.val % 9; omega)).trans ?_
    exact tap_apply p 2 2 _ b y x _ 0 _ _ (by show y.val + k.val % 9 / 3 = y.val + 2; omega)
      (by show x.val + k.val % 9 % 3 = x.val + 2; omega)

/-- So the second stage IS the patch gather. -/
theorem tail_eq (p : SPad.Idx → α) : tail p = patches p := by
  funext j
  rw [eq_ix4 j]
  exact tail_apply p (j 0) (j 1) (j 2) (j 3)

end Cert.Patches

end
-- ==== Proof.RefRun.lean ====
/-
  The reference program's run, read back.

  Its @main is a straight line of host operations once the module-local reflect pad (and the two flips it
  calls) is written out at its call site into that call's buffers: the scalar the pad's second operand names,
  the pad's sixteen operations, the nine window slices of the padded image, their nine trailing unit axes,
  the concatenation along that axis and the final reshape — thirty-seven operations over distinct buffers. A
  straight line terminates, and leaves in each buffer the composition of the operations that lead to it: the
  result buffer holds `tail (pad x)` of the argument `x`, which no operation writes.
-/
import proofs.«179139_j61564061221008_1_alg».proof.Proof.Gen.ReferenceIdeal
import proofs.«179139_j61564061221008_1_alg».proof.Proof.Layout
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The first stage: the scalar operand and the reflect pad with its flips written out at the call, into the
    call's buffers. -/
abbrev padOps : List (HloOp τ sig (Elt F)) :=
  [ nullary main_c (constantI S_ 32 0#32),
    -- the reflect pad, into the call's buffers: rows first
    TRef.unary (.of main_arg0 : TRef sig ⟨S8x256x256x32, .f32⟩) main_call0.v0 (extractStridedSlice S8x1x256x32 ![0, 0, 0, 0] · slices_S8x256x256x32_S8x1x256x32_0_0_0_0),
    TRef.unary (.of main_arg0 : TRef sig ⟨S8x256x256x32, .f32⟩) main_call0.v1 (extractStridedSlice S8x1x256x32 ![0, 1, 0, 0] · slices_S8x256x256x32_S8x1x256x32_0_1_0_0),
    TRef.unary main_call0.v1 main_call0.call0.v0 (Host.reverse [1]),
    TRef.binary main_call0.call0.v0 (.of main_arg0 : TRef sig ⟨S8x256x256x32, .f32⟩) main_call0.v3 (fun a b => concatenate S8x257x256x32 1 [⟨S8x1x256x32, a⟩, ⟨S8x256x256x32, b⟩] concatenates_S8x1x256x32_S8x256x256x32_S8x257x256x32_d1),
    TRef.unary main_call0.v3 main_call0.v4 (extractStridedSlice S8x1x256x32 ![0, 256, 0, 0] · slices_S8x257x256x32_S8x1x256x32_0_256_0_0),
    TRef.unary main_call0.v3 main_call0.v5 (extractStridedSlice S8x1x256x32 ![0, 255, 0, 0] · slices_S8x257x256x32_S8x1x256x32_0_255_0_0),
    TRef.unary main_call0.v5 main_call0.call1.v0 (Host.reverse [1]),
    TRef.binary main_call0.v3 main_call0.call1.v0 main_call0.v7 (fun a b => concatenate S8x258x256x32 1 [⟨S8x257x256x32, a⟩, ⟨S8x1x256x32, b⟩] concatenates_S8x257x256x32_S8x1x256x32_S8x258x256x32_d1),
    -- then columns
    TRef.unary main_call0.v7 main_call0.v8 (extractStridedSlice S8x258x1x32 ![0, 0, 0, 0] · slices_S8x258x256x32_S8x258x1x32_0_0_0_0),
    TRef.unary main_call0.v7 main_call0.v9 (extractStridedSlice S8x258x1x32 ![0, 0, 1, 0] · slices_S8x258x256x32_S8x258x1x32_0_0_1_0),
    TRef.unary main_call0.v9 main_call0.call2.v0 (Host.reverse [2]),
    TRef.binary main_call0.call2.v0 main_call0.v7 main_call0.v11 (fun a b => concatenate S8x258x257x32 2 [⟨S8x258x1x32, a⟩, ⟨S8x258x256x32, b⟩] concatenates_S8x258x1x32_S8x258x256x32_S8x258x257x32_d2),
    TRef.unary main_call0.v11 main_call0.v12 (extractStridedSlice S8x258x1x32 ![0, 0, 256, 0] · slices_S8x258x257x32_S8x258x1x32_0_0_256_0),
    TRef.unary main_call0.v11 main_call0.v13 (extractStridedSlice S8x258x1x32 ![0, 0, 255, 0] · slices_S8x258x257x32_S8x258x1x32_0_0_255_0),
    TRef.unary main_call0.v13 main_call0.call3.v0 (Host.reverse [2]),
    TRef.binary main_call0.v11 main_call0.call3.v0 main_call0.v15 (fun a b => concatenate S8x258x258x32 2 [⟨S8x258x257x32, a⟩, ⟨S8x258x1x32, b⟩] concatenates_S8x258x257x32_S8x258x1x32_S8x258x258x32_d2) ]

/-- The second stage: the nine window slices of the padded image, a trailing unit axis on each, the stack and the merge. -/
abbrev tailOps : List (HloOp τ sig (Elt F)) :=
  [ unary main_v0 main_v1 ((extractStridedSlice S8x256x256x32 ![0, 0, 0, 0] · slices_S8x258x258x32_S8x256x256x32_0_0_0_0) : (⟨S8x258x258x32, .f32⟩ : BufTy).Contents (Elt F) → (⟨S8x256x256x32, .f32⟩ : BufTy).Contents (Elt F)),
    unary main_v0 main_v2 ((extractStridedSlice S8x256x256x32 ![0, 0, 1, 0] · slices_S8x258x258x32_S8x256x256x32_0_0_1_0) : (⟨S8x258x258x32, .f32⟩ : BufTy).Contents (Elt F) → (⟨S8x256x256x32, .f32⟩ : BufTy).Contents (Elt F)),
    unary main_v0 main_v3 ((extractStridedSlice S8x256x256x32 ![0, 0, 2, 0] · slices_S8x258x258x32_S8x256x256x32_0_0_2_0) : (⟨S8x258x258x32, .f32⟩ : BufTy).Contents (Elt F) → (⟨S8x256x256x32, .f32⟩ : BufTy).Contents (Elt F)),
    unary main_v0 main_v4 ((extractStridedSlice S8x256x256x32 ![0, 1, 0, 0] · slices_S8x258x258x32_S8x256x256x32_0_1_0_0) : (⟨S8x258x258x32, .f32⟩ : BufTy).Contents (Elt F) → (⟨S8x256x256x32, .f32⟩ : BufTy).Contents (Elt F)),
    unary main_v0 main_v5 ((extractStridedSlice S8x256x256x32 ![0, 1, 1, 0] · slices_S8x258x258x32_S8x256x256x32_0_1_1_0) : (⟨S8x258x258x32, .f32⟩ : BufTy).Contents (Elt F) → (⟨S8x256x256x32, .f32⟩ : BufTy).Contents (Elt F)),
    unary main_v0 main_v6 ((extractStridedSlice S8x256x256x32 ![0, 1, 2, 0] · slices_S8x258x258x32_S8x256x256x32_0_1_2_0) : (⟨S8x258x258x32, .f32⟩ : BufTy).Contents (Elt F) → (⟨S8x256x256x32, .f32⟩ : BufTy).Contents (Elt F)),
    unary main_v0 main_v7 ((extractStridedSlice S8x256x256x32 ![0, 2, 0, 0] · slices_S8x258x258x32_S8x256x256x32_0_2_0_0) : (⟨S8x258x258x32, .f32⟩ : BufTy).Contents (Elt F) → (⟨S8x256x256x32, .f32⟩ : BufTy).Contents (Elt F)),
    unary main_v0 main_v8 ((extractStridedSlice S8x256x256x32 ![0, 2, 1, 0] · slices_S8x258x258x32_S8x256x256x32_0_2_1_0) : (⟨S8x258x258x32, .f32⟩ : BufTy).Contents (Elt F) → (⟨S8x256x256x32, .f32⟩ : BufTy).Contents (Elt F)),
    unary main_v0 main_v9 ((extractStridedSlice S8x256x256x32 ![0, 2, 2, 0] · slices_S8x258x258x32_S8x256x256x32_0_2_2_0) : (⟨S8x258x258x32, .f32⟩ : BufTy).Contents (Elt F) → (⟨S8x256x256x32, .f32⟩ : BufTy).Contents (Elt F)),
    -- each given a trailing unit axis
    unary main_v1 main_v10 (broadcastInDim S8x256x256x32x1 ![0, 1, 2, 3] bcast_S8x256x256x32_S8x256x256x32x1_0_1_2_3 : (⟨S8x256x256x32, .f32⟩ : BufTy).Contents (Elt F) → (⟨S8x256x256x32x1, .f32⟩ : BufTy).Contents (Elt F)),
    unary main_v2 main_v11 (broadcastInDim S8x256x256x32x1 ![0, 1, 2, 3] bcast_S8x256x256x32_S8x256x256x32x1_0_1_2_3 : (⟨S8x256x256x32, .f32⟩ : BufTy).Contents (Elt F) → (⟨S8x256x256x32x1, .f32⟩ : BufTy).Contents (Elt F)),
    unary main_v3 main_v12 (broadcastInDim S8x256x256x32x1 ![0, 1, 2, 3] bcast_S8x256x256x32_S8x256x256x32x1_0_1_2_3 : (⟨S8x256x256x32, .f32⟩ : BufTy).Contents (Elt F) → (⟨S8x256x256x32x1, .f32⟩ : BufTy).Contents (Elt F)),
    unary main_v4 main_v13 (broadcastInDim S8x256x256x32x1 ![0, 1, 2, 3] bcast_S8x256x256x32_S8x256x256x32x1_0_1_2_3 : (⟨S8x256x256x32, .f32⟩ : BufTy).Contents (Elt F) → (⟨S8x256x256x32x1, .f32⟩ : BufTy).Contents (Elt F)),
    unary main_v5 main_v14 (broadcastInDim S8x256x256x32x1 ![0, 1, 2, 3] bcast_S8x256x256x32_S8x256x256x32x1_0_1_2_3 : (⟨S8x256x256x32, .f32⟩ : BufTy).Contents (Elt F) → (⟨S8x256x256x32x1, .f32⟩ : BufTy).Contents (Elt F)),
    unary main_v6 main_v15 (broadcastInDim S8x256x256x32x1 ![0, 1, 2, 3] bcast_S8x256x256x32_S8x256x256x32x1_0_1_2_3 : (⟨S8x256x256x32, .f32⟩ : BufTy).Contents (Elt F) → (⟨S8x256x256x32x1, .f32⟩ : BufTy).Contents (Elt F)),
    unary main_v7 main_v16 (broadcastInDim S8x256x256x32x1 ![0, 1, 2, 3] bcast_S8x256x256x32_S8x256x256x32x1_0_1_2_3 : (⟨S8x256x256x32, .f32⟩ : BufTy).Contents (Elt F) → (⟨S8x256x256x32x1, .f32⟩ : BufTy).Contents (Elt F)),
    unary main_v8 main_v17 (broadcastInDim S8x256x256x32x1 ![0, 1, 2, 3] bcast_S8x256x256x32_S8x256x256x32x1_0_1_2_3 : (⟨S8x256x256x32, .f32⟩ : BufTy).Contents (Elt F) → (⟨S8x256x256x32x1, .f32⟩ : BufTy).Contents (Elt F)),
    unary main_v9 main_v18 (broadcastInDim S8x256x256x32x1 ![0, 1, 2, 3] bcast_S8x256x256x32_S8x256x256x32x1_0_1_2_3 : (⟨S8x256x256x32, .f32⟩ : BufTy).Contents (Elt F) → (⟨S8x256x256x32x1, .f32⟩ : BufTy).Contents (Elt F)),
    -- stacked along it, and channel and tap merged
    nary ![main_v10, main_v11, main_v12, main_v13, main_v14, main_v15, main_v16, main_v17, main_v18] main_v19 (fun u => concatenate S8x256x256x32x9 4 [⟨S8x256x256x32x1, u 0⟩, ⟨S8x256x256x32x1, u 1⟩, ⟨S8x256x256x32x1, u 2⟩, ⟨S8x256x256x32x1, u 3⟩, ⟨S8x256x256x32x1, u 4⟩, ⟨S8x256x256x32x1, u 5⟩, ⟨S8x256x256x32x1, u 6⟩, ⟨S8x256x256x32x1, u 7⟩, ⟨S8x256x256x32x1, u 8⟩] concatenates_S8x256x256x32x1_S8x256x256x32x1_S8x256x256x32x1_S8x256x256x32x1_S8x256x256x32x1_S8x256x256x32x1_S8x256x256x32x1_S8x256x256x32x1_S8x256x256x32x1_S8x256x256x32x9_d4),
    reshape main_v19 main_v20 rfl shapeCasts_S8x256x256x32x9_S8x256x256x288 ]

/-- @main's operations in order. -/
abbrev ops : List (HloOp τ sig (Elt F)) := padOps ++ tailOps

set_option maxRecDepth 4096 in
/-- @main is that straight line: the three functions' bodies unfolded at their calls, sequencing reassociated. -/
theorem main_eq (c : Dev nD) : main (F := F) c = seq ops := by
  simp only [main, fn_pad.body, fn_flip.body, fn_flip_0.body, ops, padOps, tailOps, List.cons_append, List.nil_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem padOps_sub : (padOps : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., unary_bufs_sub .., binary_bufs_sub ..⟩

theorem tailOps_sub : (tailOps : List (HloOp τ sig (Elt F))).Forall fun op => op.bufs ⊆ tcRefs τ sig :=
  ⟨unary_bufs_sub .., unary_bufs_sub .., unary_bufs_sub .., unary_bufs_sub .., unary_bufs_sub .., unary_bufs_sub ..,
    unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub ..,
    nary_bufs_sub .., reshape_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp padOps_sub op) (List.forall_iff_forall_mem.mp tailOps_sub op)

/-- Every operation determines what it writes. -/
theorem ops_fresh : ∀ op ∈ (ops : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-- Two lines one after the other leave what the second leaves of what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first stage leaves the reflect pad of the argument in the padded image's buffer. -/
theorem pad_eq (V : Valuation τ sig (Elt F)) :
    after padOps V (main_v0 : DevRef τ sig) = Cert.Patches.pad (V (main_arg0 : DevRef τ sig)) := by
  after_results
  simp only [TRef.toBuf, TRef.ofBuf, cast_cast, cast_eq]
  rfl

/-- The second stage leaves, in the result buffer, the stacked and merged taps of whatever the padded image's buffer held. -/
theorem tail_eq (W : Valuation τ sig (Elt F)) :
    after tailOps W (main_v20 : DevRef τ sig) = Cert.Patches.tail (W (main_v0 : DevRef τ sig)) := by
  after_results_simp
  rfl

/-- What the line leaves in the result buffer, from any contents: the second stage of the first stage of the argument. -/
theorem out_eq (V : Valuation τ sig (Elt F)) :
    after ops V (main_v20 : DevRef τ sig) = Cert.Patches.tail (Cert.Patches.pad (V (main_arg0 : DevRef τ sig))) := by
  rw [show (ops : List (HloOp τ sig (Elt F))) = padOps ++ tailOps from rfl, after_append, tail_eq, pad_eq]

/-- No operation writes the argument. -/
theorem arg0_eq (V : Valuation τ sig (Elt F)) :
    after ops V (main_arg0 : DevRef τ sig) = V (main_arg0 : DevRef τ sig) := by
  rw [show (ops : List (HloOp τ sig (Elt F))) = padOps ++ tailOps from rfl, after_append]
  after_results_simp

/-- On every device, from any memory with zero counters: every weakly fair execution of @main terminates with the result
    buffer at the second stage of the reflect pad of the argument's launch contents, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = Cert.Patches.tail (Cert.Patches.pad (m ((c.tc : Thread nD τ).loc main_arg0)))
      ∧ r.2.mem ((c.tc : Thread nD τ).loc main_arg0) = m ((c.tc : Thread nD τ).loc main_arg0) :=
  (θ_run defs _ _).mono (fun _ h c => ⟨(h c main_v20).trans (out_eq _), (h c main_arg0).trans (arg0_eq _)⟩)
    (run_seq scopedRefs_eq scopedSems_eq defs main (fun _ => ops) main_eq (fun _ => ops_sub) m ρ (fun _ => ops_fresh))

end Cert.ReferenceIdeal.HostRun

end
-- ==== Proof.KBody.lean ====
/-
  What one run of the kernel body leaves in the output block, read at an index.

  At grid point `(b, h)` the body finds the whole padded image `b` in its input buffer, as a block `x0` of shape
  [1, 258, 258, 32], and fills the output block of shape [1, 16, 256, 288] — rows `16 h … 16 h + 15` of image `b` of
  the result — with one store. What it stores is built from nine loads: for tap `i = 3 ki + kj` the sixteen rows
  `16 h + ki …` and the 256 columns `kj …` of `x0`. Each load drops its leading unit axis, gains a trailing one,
  the nine are concatenated along it, channel and tap are merged (`[32, 9]` to `288`), and a leading unit axis is put back.
  Read at `(0, y, x, k)`: the merge sends `k` to channel `k / 9` and tap `k % 9`, the concatenation picks that tap's load,
  and the load adds its offsets: the entry is `x0[0, 16 h + k % 9 / 3 + y, k % 9 % 3 + x, k / 9]`.
-/
import proofs.«179139_j61564061221008_1_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz : (![0, 0, 0, 0] : Fin 4 → Nat) = fun _ => 0 := funext fun a => by fin_cases a <;> rfl

/-- The body's one store covers the output block, so the block ends holding its payload: the stack of the nine loads. -/
theorem out_eq (c : Dev nD) (i : grid0.Coords) (a2 : Memref sig .tc .vmem S1x258x258x32 .f32) (h2 : a2.IsWhole)
    (a3 : Memref sig .tc .vmem S1x16x256x288 .f32) (h3 : a3.IsWhole) (x0 : Vec F S1x258x258x32 .f32) :
    out0_A_1 c i a2 h2 a3 h3 x0
      = k0_pay1
          (k0_pay2 (View.ld (Val := Elt F) x0 (Rect.unit (s := S1x258x258x32) (k0_off1 i 0#32) S1x16x256x32.size (k0_off1_inb i 0))))
          (k0_pay3 (View.ld (Val := Elt F) x0 (Rect.unit (s := S1x258x258x32) (k0_off2 i 0#32) S1x16x256x32.size (k0_off2_inb i 0))))
          (k0_pay4 (View.ld (Val := Elt F) x0 (Rect.unit (s := S1x258x258x32) (k0_off3 i 0#32) S1x16x256x32.size (k0_off3_inb i 0))))
          (k0_pay5 (View.ld (Val := Elt F) x0 (Rect.unit (s := S1x258x258x32) (k0_off1 i 1#32) S1x16x256x32.size (k0_off1_inb i 1))))
          (k0_pay6 (View.ld (Val := Elt F) x0 (Rect.unit (s := S1x258x258x32) (k0_off2 i 1#32) S1x16x256x32.size (k0_off2_inb i 1))))
          (k0_pay7 (View.ld (Val := Elt F) x0 (Rect.unit (s := S1x258x258x32) (k0_off3 i 1#32) S1x16x256x32.size (k0_off3_inb i 1))))
          (k0_pay8 (View.ld (Val := Elt F) x0 (Rect.unit (s := S1x258x258x32) (k0_off1 i 2#32) S1x16x256x32.size (k0_off1_inb i 2))))
          (View.ld (Val := Elt F) x0 (Rect.unit (s := S1x258x258x32) (k0_off2 i 2#32) S1x16x256x32.size (k0_off2_inb i 2)))
          (View.ld (Val := Elt F) x0 (Rect.unit (s := S1x258x258x32) (k0_off3 i 2#32) S1x16x256x32.size (k0_off3_inb i 2))) := by
  unfold out0_A_1
  rw [View.read_writes_eq_canon _ _ _ (cover0_A_1 c i a2 h2 a3 h3 x0)]
  unfold kernelRun0_A
  dsimp only
  sl_unfold_words
  rw [View.canon_unit_zero hz]
  simp only [View.readAt_eq_ld, h2.read_unread]

/-- A load of a [1, 16, 256, 32] box at offsets `(0, row, col, 0)` reads, at `(0, y, x, c)`, the buffer at
    `(0, row + y, col + x, c)`. -/
theorem ld_apply (x0 : Vec F S1x258x258x32 .f32) (off : Fin 4 → Nat)
    (inb : ∀ a, off a + S1x16x256x32.size a ≤ S1x258x258x32.size a) (row col : Nat) (hoff : off = ![0, row, col, 0])
    (e : Fin 1) (y : Fin 16) (x : Fin 256) (c : Fin 32) (y' x' : Fin 258) (hy : y'.val = row + y.val) (hx : x'.val = col + x.val) :
    View.ld (Val := Elt F) x0 (Rect.unit (s := S1x258x258x32) off S1x16x256x32.size inb) (ix4 e y x c) = x0 (ix4 0 y' x' c) := by
  subst hoff
  refine congrArg x0 (funext fun a => Fin.ext ?_)
  match a with
  | ⟨0, _⟩ => show 0 + 1 * e.val = 0; omega
  | ⟨1, _⟩ => show row + 1 * y.val = y'.val; omega
  | ⟨2, _⟩ => show col + 1 * x.val = x'.val; omega
  | ⟨3, _⟩ => show 0 + 1 * c.val = c.val; omega

/-- Dropping a load's leading unit axis and adding a trailing one moves no entry. -/
theorem unit_axes_apply {α : Type} (u : S1x16x256x32.Idx → α) (y : Fin 16) (x : Fin 256) (c : Fin 32) (e : Fin 1) :
    shapeCast S16x256x32x1 (shapeCast S16x256x32 u shapeCasts_S1x16x256x32_S16x256x32) shapeCasts_S16x256x32_S16x256x32x1 (ix4 y x c e)
      = u (ix4 0 y x c) := by
  refine (shapeCast_apply (s := S16x256x32) (t := S16x256x32x1) _ _ (ix4 y x c e) (ix3 y x c) ?_).trans ?_
  · rw [Shape.rowMajor_val_three, Shape.rowMajor_val_four]
    show (y.val * 256 + x.val) * 32 + c.val = ((y.val * 256 + x.val) * 32 + c.val) * 1 + e.val
    omega
  · refine shapeCast_apply (s := S1x16x256x32) (t := S16x256x32) _ _ (ix3 y x c) (ix4 0 y x c) ?_
    rw [Shape.rowMajor_val_four, Shape.rowMajor_val_three]
    show ((0 * 16 + y.val) * 256 + x.val) * 32 + c.val = (y.val * 256 + x.val) * 32 + c.val
    omega

/-- The payload at `(0, y, x, k)` is load `k % 9` at `(0, y, x, k / 9)`. -/
theorem pay_apply (u0 u1 u2 u3 u4 u5 u6 u7 u8 : Vec F S1x16x256x32 .f32) (e : Fin 1) (y : Fin 16) (x : Fin 256) (k : Fin 288)
    (hc : k.val / 9 < 32) (hn : k.val % 9 < 9) :
    k0_pay1 (k0_pay2 u0) (k0_pay3 u1) (k0_pay4 u2) (k0_pay5 u3) (k0_pay6 u4) (k0_pay7 u5) (k0_pay8 u6) u7 u8 (ix4 e y x k)
      = (![u0, u1, u2, u3, u4, u5, u6, u7, u8] : Fin 9 → Vec F S1x16x256x32 .f32) ⟨k.val % 9, hn⟩ (ix4 0 y x ⟨k.val / 9, hc⟩) := by
  unfold k0_pay1 k0_pay2 k0_pay3 k0_pay4 k0_pay5 k0_pay6 k0_pay7 k0_pay8
  dsimp only
  refine (shapeCast_apply (s := S16x256x288) (t := S1x16x256x288) _ _ (ix4 e y x k) (ix3 y x k) ?_).trans ?_
  · rw [Shape.rowMajor_val_three, Shape.rowMajor_val_four]
    show (y.val * 256 + x.val) * 288 + k.val = (((e.val * 16 + y.val) * 256 + x.val) * 288 + k.val)
    omega
  refine (shapeCast_apply (s := S16x256x32x9) (t := S16x256x288) _ _ (ix3 y x k) (ix4 y x ⟨k.val / 9, hc⟩ ⟨k.val % 9, hn⟩) ?_).trans ?_
  · rw [Shape.rowMajor_val_four, Shape.rowMajor_val_three]
    show ((y.val * 256 + x.val) * 32 + k.val / 9) * 9 + k.val % 9 = (y.val * 256 + x.val) * 288 + k.val
    omega
  have h9 : k.val % 9 = 0 ∨ k.val % 9 = 1 ∨ k.val % 9 = 2 ∨ k.val % 9 = 3 ∨ k.val % 9 = 4 ∨ k.val % 9 = 5
      ∨ k.val % 9 = 6 ∨ k.val % 9 = 7 ∨ k.val % 9 = 8 := by omega
  have hoff : ∀ b' : Fin S16x256x32x1.rank, b'.cast (rfl : S16x256x32x1.rank = S16x256x32x9.rank) ≠ (3 : Fin S16x256x32x9.rank) →
      ((ix4 y x (⟨k.val / 9, hc⟩ : Fin 32) (0 : Fin 1) : S16x256x32x1.Idx) b').val
        = ((ix4 y x (⟨k.val / 9, hc⟩ : Fin 32) (⟨k.val % 9, hn⟩ : Fin 9) : S16x256x32x9.Idx) (b'.cast rfl)).val := by
    intro b' hb'
    match b' with
    | ⟨0, _⟩ => rfl
    | ⟨1, _⟩ => rfl
    | ⟨2, _⟩ => rfl
    | ⟨3, _⟩ => exact absurd rfl hb'
  rcases h9 with h | h | h | h | h | h | h | h | h
  · refine (concatenate_apply_piece (3 : Fin S16x256x32x9.rank) _ _ _ 0 (by show 0 < 9; omega) S16x256x32x1 _ rfl rfl 0 rfl
      (ix4 y x ⟨k.val / 9, hc⟩ 0) hoff (by show 0 + 0 = k.val % 9; omega)).trans ?_
    rw [show (⟨k.val % 9, hn⟩ : Fin 9) = 0 from Fin.ext h]
    exact unit_axes_apply _ y x _ 0
  · refine (concatenate_apply_piece (3 : Fin S16x256x32x9.rank) _ _ _ 1 (by show 1 < 9; omega) S16x256x32x1 _ rfl rfl 1 rfl
      (ix4 y x ⟨k.val / 9, hc⟩ 0) hoff (by show 1 + 0 = k.val % 9; omega)).trans ?_
    rw [show (⟨k.val % 9, hn⟩ : Fin 9) = 1 from Fin.ext h]
    exact unit_axes_apply _ y x _ 0
  · refine (concatenate_apply_piece (3 : Fin S16x256x32x9.rank) _ _ _ 2 (by show 2 < 9; omega) S16x256x32x1 _ rfl rfl 2 rfl
      (ix4 y x ⟨k.val / 9, hc⟩ 0) hoff (by show 2 + 0 = k.val % 9; omega)).trans ?_
    rw [show (⟨k.val % 9, hn⟩ : Fin 9) = 2 from Fin.ext h]
    exact unit_axes_apply _ y x _ 0
  · refine (concatenate_apply_piece (3 : Fin S16x256x32x9.rank) _ _ _ 3 (by show 3 < 9; omega) S16x256x32x1 _ rfl rfl 3 rfl
      (ix4 y x ⟨k.val / 9, hc⟩ 0) hoff (by show 3 + 0 = k.val % 9; omega)).trans ?_
    rw [show (⟨k.val % 9, hn⟩ : Fin 9) = 3 from Fin.ext h]
    exact unit_axes_apply _ y x _ 0
  · refine (concatenate_apply_piece (3 : Fin S16x256x32x9.rank) _ _ _ 4 (by show 4 < 9; omega) S16x256x32x1 _ rfl rfl 4 rfl
      (ix4 y x ⟨k.val / 9, hc⟩ 0) hoff (by show 4 + 0 = k.val % 9; omega)).trans ?_
    rw [show (⟨k.val % 9, hn⟩ : Fin 9) = 4 from Fin.ext h]
    exact unit_axes_apply _ y x _ 0
  · refine (concatenate_apply_piece (3 : Fin S16x256x32x9.rank) _ _ _ 5 (by show 5 < 9; omega) S16x256x32x1 _ rfl rfl 5 rfl
      (ix4 y x ⟨k.val / 9, hc⟩ 0) hoff (by show 5 + 0 = k.val % 9; omega)).trans ?_
    rw [show (⟨k.val % 9, hn⟩ : Fin 9) = 5 from Fin.ext h]
    exact unit_axes_apply _ y x _ 0
  · refine (concatenate_apply_piece (3 : Fin S16x256x32x9.rank) _ _ _ 6 (by show 6 < 9; omega) S16x256x32x1 _ rfl rfl 6 rfl
      (ix4 y x ⟨k.val / 9, hc⟩ 0) hoff (by show 6 + 0 = k.val % 9; omega)).trans ?_
    rw [show (⟨k.val % 9, hn⟩ : Fin 9) = 6 from Fin.ext h]
    exact unit_axes_apply _ y x _ 0
  · refine (concatenate_apply_piece (3 : Fin S16x256x32x9.rank) _ _ _ 7 (by show 7 < 9; omega) S16x256x32x1 _ rfl rfl 7 rfl
      (ix4 y x ⟨k.val / 9, hc⟩ 0) hoff (by show 7 + 0 = k.val % 9; omega)).trans ?_
    rw [show (⟨k.val % 9, hn⟩ : Fin 9) = 7 from Fin.ext h]
    exact unit_axes_apply _ y x _ 0
  · refine (concatenate_apply_piece (3 : Fin S16x256x32x9.rank) _ _ _ 8 (by show 8 < 9; omega) S16x256x32x1 _ rfl rfl 8 rfl
      (ix4 y x ⟨k.val / 9, hc⟩ 0) hoff (by show 8 + 0 = k.val % 9; omega)).trans ?_
    rw [show (⟨k.val % 9, hn⟩ : Fin 9) = 8 from Fin.ext h]
    exact unit_axes_apply _ y x _ 0

/-- Where entry `j` of the output block of band `h` reads the input block: `(0, 16 h + j₁ + j₃ % 9 / 3, j₂ + j₃ % 9 % 3, j₃ / 9)`. -/
def src (h : Fin 16) (j : S1x16x256x288.Idx) : S1x258x258x32.Idx :=
  ix4 (0 : Fin 1)
    (⟨h.val * 16 + (j 1).val + (j 3).val % 9 / 3, by
      have h1 : (j 1).val < 16 := (j 1).isLt; have h3 : (j 3).val < 288 := (j 3).isLt; have := h.isLt; omega⟩ : Fin 258)
    (⟨(j 2).val + (j 3).val % 9 % 3, by have h2 : (j 2).val < 256 := (j 2).isLt; omega⟩ : Fin 258)
    (⟨(j 3).val / 9, by have h3 : (j 3).val < 288 := (j 3).isLt; omega⟩ : Fin 32)

/-- What the body leaves in the output block, entry by entry, of the input block `x0` it found. -/
theorem out_at (c : Dev nD) (i : grid0.Coords) (a2 : Memref sig .tc .vmem S1x258x258x32 .f32) (h2 : a2.IsWhole)
    (a3 : Memref sig .tc .vmem S1x16x256x288 .f32) (h3 : a3.IsWhole) (x0 : Vec F S1x258x258x32 .f32) (j : S1x16x256x288.Idx) :
    out0_A_1 c i a2 h2 a3 h3 x0 j = x0 (src (i 1) j) := by
  have hj1 : (j 1).val < 16 := (j 1).isLt
  have hj2 : (j 2).val < 256 := (j 2).isLt
  have hj3 : (j 3).val < 288 := (j 3).isLt
  have hi : (i 1).val < 16 := (i 1).isLt
  have hc : (j 3).val / 9 < 32 := by omega
  have hn : (j 3).val % 9 < 9 := by omega
  rw [out_eq, eq_ix4 j]
  refine (pay_apply _ _ _ _ _ _ _ _ _ (j 0) (j 1) (j 2) (j 3) hc hn).trans ?_
  have h9 : (j 3).val % 9 = 0 ∨ (j 3).val % 9 = 1 ∨ (j 3).val % 9 = 2 ∨ (j 3).val % 9 = 3 ∨ (j 3).val % 9 = 4
      ∨ (j 3).val % 9 = 5 ∨ (j 3).val % 9 = 6 ∨ (j 3).val % 9 = 7 ∨ (j 3).val % 9 = 8 := by omega
  unfold src
  rcases h9 with h | h | h | h | h | h | h | h | h
  · rw [show (⟨(j 3).val % 9, hn⟩ : Fin 9) = 0 from Fin.ext h]
    exact ld_apply x0 _ _ (16 * (i 1).val + 0) 0 (k0_off1_eq i 0) 0 (j 1) (j 2) _ _ _
      (by show (i 1).val * 16 + (j 1).val + (j 3).val % 9 / 3 = 16 * (i 1).val + 0 + (j 1).val; omega)
      (by show (j 2).val + (j 3).val % 9 % 3 = 0 + (j 2).val; omega)
  · rw [show (⟨(j 3).val % 9, hn⟩ : Fin 9) = 1 from Fin.ext h]
    exact ld_apply x0 _ _ (16 * (i 1).val + 0) 1 (k0_off2_eq i 0) 0 (j 1) (j 2) _ _ _
      (by show (i 1).val * 16 + (j 1).val + (j 3).val % 9 / 3 = 16 * (i 1).val + 0 + (j 1).val; omega)
      (by show (j 2).val + (j 3).val % 9 % 3 = 1 + (j 2).val; omega)
  · rw [show (⟨(j 3).val % 9, hn⟩ : Fin 9) = 2 from Fin.ext h]
    exact ld_apply x0 _ _ (16 * (i 1).val + 0) 2 (k0_off3_eq i 0) 0 (j 1) (j 2) _ _ _
      (by show (i 1).val * 16 + (j 1).val + (j 3).val % 9 / 3 = 16 * (i 1).val + 0 + (j 1).val; omega)
      (by show (j 2).val + (j 3).val % 9 % 3 = 2 + (j 2).val; omega)
  · rw [show (⟨(j 3).val % 9, hn⟩ : Fin 9) = 3 from Fin.ext h]
    exact ld_apply x0 _ _ (16 * (i 1).val + 1) 0 (k0_off1_eq i 1) 0 (j 1) (j 2) _ _ _
      (by show (i 1).val * 16 + (j 1).val + (j 3).val % 9 / 3 = 16 * (i 1).val + 1 + (j 1).val; omega)
      (by show (j 2).val + (j 3).val % 9 % 3 = 0 + (j 2).val; omega)
  · rw [show (⟨(j 3).val % 9, hn⟩ : Fin 9) = 4 from Fin.ext h]
    exact ld_apply x0 _ _ (16 * (i 1).val + 1) 1 (k0_off2_eq i 1) 0 (j 1) (j 2) _ _ _
      (by show (i 1).val * 16 + (j 1).val + (j 3).val % 9 / 3 = 16 * (i 1).val + 1 + (j 1).val; omega)
      (by show (j 2).val + (j 3).val % 9 % 3 = 1 + (j 2).val; omega)
  · rw [show (⟨(j 3).val % 9, hn⟩ : Fin 9) = 5 from Fin.ext h]
    exact ld_apply x0 _ _ (16 * (i 1).val + 1) 2 (k0_off3_eq i 1) 0 (j 1) (j 2) _ _ _
      (by show (i 1).val * 16 + (j 1).val + (j 3).val % 9 / 3 = 16 * (i 1).val + 1 + (j 1).val; omega)
      (by show (j 2).val + (j 3).val % 9 % 3 = 2 + (j 2).val; omega)
  · rw [show (⟨(j 3).val % 9, hn⟩ : Fin 9) = 6 from Fin.ext h]
    exact ld_apply x0 _ _ (16 * (i 1).val + 2) 0 (k0_off1_eq i 2) 0 (j 1) (j 2) _ _ _
      (by show (i 1).val * 16 + (j 1).val + (j 3).val % 9 / 3 = 16 * (i 1).val + 2 + (j 1).val; omega)
      (by show (j 2).val + (j 3).val % 9 % 3 = 0 + (j 2).val; omega)
  · rw [show (⟨(j 3).val % 9, hn⟩ : Fin 9) = 7 from Fin.ext h]
    exact ld_apply x0 _ _ (16 * (i 1).val + 2) 1 (k0_off2_eq i 2) 0 (j 1) (j 2) _ _ _
      (by show (i 1).val * 16 + (j 1).val + (j 3).val % 9 / 3 = 16 * (i 1).val + 2 + (j 1).val; omega)
      (by show (j 2).val + (j 3).val % 9 % 3 = 1 + (j 2).val; omega)
  · rw [show (⟨(j 3).val % 9, hn⟩ : Fin 9) = 8 from Fin.ext h]
    exact ld_apply x0 _ _ (16 * (i 1).val + 2) 2 (k0_off3_eq i 2) 0 (j 1) (j 2) _ _ _
      (by show (i 1).val * 16 + (j 1).val + (j 3).val % 9 / 3 = 16 * (i 1).val + 2 + (j 1).val; omega)
      (by show (j 2).val + (j 3).val % 9 % 3 = 2 + (j 2).val; omega)

end Cert.KernelIdeal.Body

end
-- ==== Proof.KValue.lean ====
/-
  The kernel's result array after the run: the patch gather of the padded image.

  The grid has a point per image `b` and per band `h` of sixteen rows. At `(b, h)` the input window holds all of padded
  image `b` (its block index is `(b, 0, 0, 0)`), and the output window's block is rows `16 h … 16 h + 15` of image `b` of
  the result (block index `(b, h, 0, 0)`). The body leaves in that block, at `(0, y, x, k)`, the input block's entry
  `(0, 16 h + y + k % 9 / 3, x + k % 9 % 3, k / 9)`: that is entry `(b, 16 h + y, x, k)` of the patch gather of the
  padded array. So every block written back is the restriction of ONE function of the padded array, the blocks of all
  128 points cover the result, and the result array ends as that function. The padded array itself is what the host
  operations before the region leave: the reflect pad of the argument.
-/
import proofs.«179139_j61564061221008_1_alg».proof.Proof.Gen.KernelIdeal.Value
import proofs.«179139_j61564061221008_1_alg».proof.Proof.KBody
import proofs.«179139_j61564061221008_1_alg».proof.Proof.Layout
import Idealize.ShloMosaic.Lib.StableHlo.Run

noncomputable section

namespace Cert.KernelIdeal.Result

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The two index maps over the grid: the input window sits at the output window's image and at the origin of the other
    axes; the output window's band is the point's second coordinate; both stay in range. -/
theorem idx_facts : ∀ t : Fin cfg0.N,
    win0_0.index t (0 : Fin 4) = win0_1.index t (0 : Fin 4) ∧ win0_0.index t (1 : Fin 4) = 0 ∧ win0_0.index t (2 : Fin 4) = 0
    ∧ win0_0.index t (3 : Fin 4) = 0 ∧ win0_1.index t (1 : Fin 4) = (grid0.coords t 1).val ∧ win0_1.index t (2 : Fin 4) = 0
    ∧ win0_1.index t (3 : Fin 4) = 0 ∧ win0_1.index t (0 : Fin 4) < 8 ∧ win0_1.index t (1 : Fin 4) < 16 :=
  (by decide +kernel : ∀ t : Fin grid0.N, _)

/-- Every (image, band) pair is some point's output block. -/
theorem idx_onto : ∀ (q0 : Fin 8) (q1 : Fin 16), ∃ t : Fin cfg0.N, win0_1.index t = ![q0.val, q1.val, 0, 0] :=
  (by decide +kernel : ∀ (q0 : Fin 8) (q1 : Fin 16), ∃ t : Fin grid0.N, win0_1.index t = ![q0.val, q1.val, 0, 0])

/-- What point `t` writes back is block `t` of the patch gather of the padded array as the region finds it. -/
theorem flushed_eq (c : Dev nD) (t : Fin cfg0.N) :
    (dats m 0 c).flushed 1 t = ((cfg0.win 1).blk t).view.read (Elt F) (Cert.Patches.patches (V m c main_v0)) := by
  rw [flushed1_A]
  funext j
  obtain ⟨e0, e1, e2, e3, e4, e5, e6, e7, e8⟩ := idx_facts t
  have hj0 : (j 0).val < 1 := (j 0).isLt
  have hj1 : (j 1).val < 16 := (j 1).isLt
  have hj2 : (j 2).val < 256 := (j 2).isLt
  have hj3 : (j 3).val < 288 := (j 3).isLt
  show out0_A_1 c (grid0.coords t) (ms0_0 t) (hs0_0 t) (ms0_1 t) (hs0_1 t) (iblk m c 0 t) j = _
  rw [Body.out_at]
  show V m c main_v0 (((cfg0.win 0).blk t).view.emb (Body.src (grid0.coords t 1) j))
    = Cert.Patches.patches (V m c main_v0) (((cfg0.win 1).blk t).view.emb j)
  unfold Cert.Patches.patches Cert.Patches.tapAt
  refine congrArg (V m c main_v0) (funext fun a => Fin.ext ?_)
  match a with
  | ⟨0, _⟩ =>
    show win0_0.index t (0 : Fin 4) * 1 + 1 * 0 = win0_1.index t (0 : Fin 4) * 1 + 1 * (j 0).val
    omega
  | ⟨1, _⟩ =>
    show win0_0.index t (1 : Fin 4) * 258 + 1 * ((grid0.coords t 1).val * 16 + (j 1).val + (j 3).val % 9 / 3)
      = (win0_1.index t (1 : Fin 4) * 16 + 1 * (j 1).val) + (win0_1.index t (3 : Fin 4) * 288 + 1 * (j 3).val) % 9 / 3
    omega
  | ⟨2, _⟩ =>
    show win0_0.index t (2 : Fin 4) * 258 + 1 * ((j 2).val + (j 3).val % 9 % 3)
      = (win0_1.index t (2 : Fin 4) * 256 + 1 * (j 2).val) + (win0_1.index t (3 : Fin 4) * 288 + 1 * (j 3).val) % 9 % 3
    omega
  | ⟨3, _⟩ =>
    show win0_0.index t (3 : Fin 4) * 32 + 1 * ((j 3).val / 9) = (win0_1.index t (3 : Fin 4) * 288 + 1 * (j 3).val) / 9
    omega

/-- An index of the result is in point `t`'s block iff each coordinate is in the block's range on its axis. -/
theorem mem_blk (t : Fin cfg0.N) (i : S8x256x256x288.Idx) :
    i ∈ ((cfg0.win 1).blk t).view.set ↔ ∀ a : Fin 4, win0_1.index t a * S1x16x256x288.size a ≤ (i a).val
      ∧ (i a).val < win0_1.index t a * S1x16x256x288.size a + S1x16x256x288.size a := by
  show i ∈ ((View.whole main_v1).slice (win0_1.rect t)).set ↔ _
  rw [View.set_slice_whole, Rect.mem_set_unit]
  exact Iff.rfl

/-- Every index of the result is in some point's block: image `i 0`, band `i 1 / 16`. -/
theorem cover (i : S8x256x256x288.Idx) : ∃ t : Fin cfg0.N, (cfg0.win 1).flush t = true ∧ i ∈ ((cfg0.win 1).blk t).view.set := by
  have hi0 : (i 0).val < 8 := (i 0).isLt
  have hi1 : (i 1).val < 256 := (i 1).isLt
  have hi2 : (i 2).val < 256 := (i 2).isLt
  have hi3 : (i 3).val < 288 := (i 3).isLt
  obtain ⟨t, ht⟩ := idx_onto ⟨(i 0).val, hi0⟩ ⟨(i 1).val / 16, by omega⟩
  have q0 : win0_1.index t (0 : Fin 4) = (i 0).val := congrFun ht 0
  have q1 : win0_1.index t (1 : Fin 4) = (i 1).val / 16 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 16 ≤ (i 1).val ∧ (i 1).val < win0_1.index t (1 : Fin 4) * 16 + 16; omega
  | ⟨2, _⟩ => show win0_1.index t (2 : Fin 4) * 256 ≤ (i 2).val ∧ (i 2).val < win0_1.index t (2 : Fin 4) * 256 + 256; omega
  | ⟨3, _⟩ => show win0_1.index t (3 : Fin 4) * 288 ≤ (i 3).val ∧ (i 3).val < win0_1.index t (3 : Fin 4) * 288 + 288; omega

/-- So the result array ends as the patch gather of the padded array. -/
theorem final (c : Dev nD) : (dats m 0 c).arrAt 1 cfg0.N = Cert.Patches.patches (V m c main_v0) :=
  (dats m 0 c).arrAt_eq_of_cover 1 (Cert.Patches.patches (V m c main_v0)) (fun t _ => flushed_eq m c t) cover

/-- The padded array the region finds is the reflect pad of the argument: the host operations before the region. -/
theorem padded_eq (c : Dev nD) :
    (V m c main_v0 : S8x258x258x32.Idx → Elt F .f32) = Cert.Patches.pad (m ((c : Thread nD τ).loc main_arg0)) := by
  dsimp only [V]
  simp only [hostOps0, hostOps0_1, List.flatten_cons, List.flatten_nil, List.append_nil, List.cons_append, List.nil_append]
  after_results
  simp only [StableHlo.TRef.toBuf, StableHlo.TRef.ofBuf, cast_cast, cast_eq]
  rfl

/-- The run, read: the result array at the patch gather of the reflect pad of the argument, the argument unchanged. -/
theorem run : θ_run defs (onTc (τ := τ) (main (F := F))) ⟨m, fun _ => 0, ρ⟩ fun r => ∀ c : Dev nD,
      r.2.mem ((c : Thread nD τ).loc main_v1) = Cert.Patches.patches (Cert.Patches.pad (m ((c : Thread nD τ).loc main_arg0)))
      ∧ r.2.mem ((c : Thread nD τ).loc main_arg0) = m ((c : Thread nD τ).loc main_arg0) :=
  (θ_run defs _ _).mono (fun r h c => ⟨(h c).1.trans ((final m c).trans (congrArg Cert.Patches.patches (padded_eq m c))), (h c).2⟩)
    (run_blocks m ρ)

end Cert.KernelIdeal.Result

end
-- ==== Proof.lean ====
/-
  The two programs compute the same re-indexing of the same array.

  The kernel's entry point reflect-pads the [8, 256, 256, 32] argument by one row and one column on each side and launches
  a grid of 8 × 16 points; point `(b, h)` reads nine shifted [16, 256, 32] boxes of padded image `b`, stacks them on a new last
  axis, merges channel and tap, and writes rows `16 h … 16 h + 15` of image `b` of the result. The reference applies the
  same reflect pad, takes the nine shifted [8, 256, 256, 32] slices of the whole padded array, stacks and merges them the same
  way. Both results are `patches (pad x)`: entry `(b, y, x, k)` is the padded array at `(b, y + k % 9 / 3, x + k % 9 % 3, k / 9)`
  (Patches.lean; the reference's second stage is that function by Layout.lean's `tail_eq`, the kernel's blocks are its blocks by
  KBody.lean and cover the result by KValue.lean). No arithmetic touches a value, so the precondition is never opened, and
  the idealized kernel is the kernel's own text: nothing to preserve.
-/
import proofs.«179139_j61564061221008_1_alg».proof.Defs
import proofs.«179139_j61564061221008_1_alg».proof.Proof.Gen.Kernel
import proofs.«179139_j61564061221008_1_alg».proof.Proof.Gen.Kernel.Frame
import proofs.«179139_j61564061221008_1_alg».proof.Proof.Gen.KernelIdeal
import proofs.«179139_j61564061221008_1_alg».proof.Proof.Gen.KernelIdeal.Frame
import proofs.«179139_j61564061221008_1_alg».proof.Proof.Gen.KernelIdeal.Value
import proofs.«179139_j61564061221008_1_alg».proof.Proof.Gen.ReferenceIdeal
import proofs.«179139_j61564061221008_1_alg».proof.Proof.Gen.Pre_finite_inputs
import proofs.«179139_j61564061221008_1_alg».proof.Proof.Patches
import proofs.«179139_j61564061221008_1_alg».proof.Proof.Layout
import proofs.«179139_j61564061221008_1_alg».proof.Proof.RefRun
import proofs.«179139_j61564061221008_1_alg».proof.Proof.KValue
import Idealize.ShloMosaic.Adequacy
import Idealize.ShloMosaic.Init

noncomputable section

namespace Cert.Proof

open Idealize.ShloMosaic Idealize.SL.Sem

/-- The kernel as printed runs and keeps its argument: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations none of which writes the argument. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The ideal pass rewrote nothing. -/
theorem preserves : Cert.preserves_Kernel_KernelIdeal := trivial

/-- Both result arrays are the patch gather of the reflect pad of arguments that agree. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.HostRun.run (F := Ideal) m' ρ')
  rw [hagree c, Cert.Patches.tail_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
